-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x625000 : Shape := ⟨2, ![2, 625000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x64 .f32) (main_arg4 : FVec F S64 .f32) (main_arg5 : IVec S2x625000 32) (main_arg6 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x625000 : Shape := ⟨2, ![2, 625000]⟩
abbrev S50000 : Shape := ⟨1, ![50000]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S5000x128 : Shape := ⟨2, ![5000, 128]⟩
abbrev S675000x128 : Shape := ⟨2, ![675000, 128]⟩
abbrev S1x128 : Shape := ⟨2, ![1, 128]⟩
abbrev S50000x64 : Shape := ⟨2, ![50000, 64]⟩
abbrev S5000x64 : Shape := ⟨2, ![5000, 64]⟩
abbrev S675000x64 : Shape := ⟨2, ![675000, 64]⟩
abbrev S1x64 : Shape := ⟨2, ![1, 64]⟩
abbrev S50000x1 : Shape := ⟨2, ![50000, 1]⟩
abbrev S128x1 : Shape := ⟨2, ![128, 1]⟩

abbrev nBuf : Space → Nat
  | .hbm => 101
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x625000, .i32⟩
  | .hbm, ⟨6, _⟩ => ⟨S50000, .i32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S50000, .i32⟩
  | .hbm, ⟨12, _⟩ => ⟨S675000, .i32⟩
  | .hbm, ⟨13, _⟩ => ⟨S675000, .i32⟩
  | .hbm, ⟨14, _⟩ => ⟨S_, .f32⟩
  | .hbm, ⟨15, _⟩ => ⟨S675000, .f32⟩
  | .hbm, ⟨16, _⟩ => ⟨S_, .f32⟩
  | .hbm, ⟨17, _⟩ => ⟨S50000, .f32⟩
  | .hbm, ⟨18, _⟩ => ⟨S675000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S675000, .i32⟩
  | .hbm, ⟨30, _⟩ => ⟨S675000, .i1⟩
  | .hbm, ⟨31, _⟩ => ⟨S_, .i32⟩
  | .hbm, ⟨32, _⟩ => ⟨S675000, .i32⟩
  | .hbm, ⟨33, _⟩ => ⟨S675000, .i32⟩
  | .hbm, ⟨34, _⟩ => ⟨S675000, .i32⟩
  | .hbm, ⟨35, _⟩ => ⟨S675000x1, .i32⟩
  | .hbm, ⟨36, _⟩ => ⟨S675000, .f32⟩
  | .hbm, ⟨37, _⟩ => ⟨S_, .i32⟩
  | .hbm, ⟨38, _⟩ => ⟨S675000, .i32⟩
  | .hbm, ⟨39, _⟩ => ⟨S675000, .i1⟩
  | .hbm, ⟨40, _⟩ => ⟨S_, .i32⟩
  | .hbm, ⟨41, _⟩ => ⟨S675000, .i32⟩
  | .hbm, ⟨42, _⟩ => ⟨S675000, .i32⟩
  | .hbm, ⟨43, _⟩ => ⟨S675000, .i32⟩
  | .hbm, ⟨44, _⟩ => ⟨S675000x1, .i32⟩
  | .hbm, ⟨45, _⟩ => ⟨S675000, .f32⟩
  | .hbm, ⟨46, _⟩ => ⟨S675000, .f32⟩
  | .hbm, ⟨47, _⟩ => ⟨S50000x128, .f32⟩
  | .hbm, ⟨48, _⟩ => ⟨S_, .i32⟩
  | .hbm, ⟨49, _⟩ => ⟨S675000, .i32⟩
  | .hbm, ⟨50, _⟩ => ⟨S675000, .i1⟩
  | .hbm, ⟨51, _⟩ => ⟨S_, .i32⟩
  | .hbm, ⟨52, _⟩ => ⟨S675000, .i32⟩
  | .hbm, ⟨53, _⟩ => ⟨S675000, .i32⟩
  | .hbm, ⟨54, _⟩ => ⟨S675000, .i32⟩
  | .hbm, ⟨55, _⟩ => ⟨S675000x1, .i32⟩
  | .hbm, ⟨56, _⟩ => ⟨S675000x128, .f32⟩
  | .hbm, ⟨57, _⟩ => ⟨S675000x1, .f32⟩
  | .hbm, ⟨58, _⟩ => ⟨S675000x128, .f32⟩
  | .hbm, ⟨59, _⟩ => ⟨S675000x128, .f32⟩
  | .hbm, ⟨60, _⟩ => ⟨S_, .f32⟩
  | .hbm, ⟨61, _⟩ => ⟨S50000x128, .f32⟩
  | .hbm, ⟨62, _⟩ => ⟨S675000x1, .i32⟩
  | .hbm, ⟨63, _⟩ => ⟨S50000x128, .f32⟩
  | .hbm, ⟨64, _⟩ => ⟨S1x128, .f32⟩
  | .hbm, ⟨65, _⟩ => ⟨S50000x64, .f32⟩
  | .hbm, ⟨66, _⟩ => ⟨S_, .i32⟩
  | .hbm, ⟨67, _⟩ => ⟨S675000, .i32⟩
  | .hbm, ⟨68, _⟩ => ⟨S675000, .i1⟩
  | .hbm, ⟨69, _⟩ => ⟨S_, .i32⟩
  | .hbm, ⟨70, _⟩ => ⟨S675000, .i32⟩
  | .hbm, ⟨71, _⟩ => ⟨S675000, .i32⟩
  | .hbm, ⟨72, _⟩ => ⟨S675000, .i32⟩
  | .hbm, ⟨73, _⟩ => ⟨S675000x1, .i32⟩
  | .hbm, ⟨74, _⟩ => ⟨S675000x64, .f32⟩
  | .hbm, ⟨75, _⟩ => ⟨S675000x1, .f32⟩
  | .hbm, ⟨76, _⟩ => ⟨S675000x64, .f32⟩
  | .hbm, ⟨77, _⟩ => ⟨S675000x64, .f32⟩
  | .hbm, ⟨78, _⟩ => ⟨S_, .f32⟩
  | .hbm, ⟨79, _⟩ => ⟨S50000x64, .f32⟩
  | .hbm, ⟨80, _⟩ => ⟨S675000x1, .i32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S128x64, .f32⟩
  | .hbm, ⟨87, _⟩ => ⟨S50000x1, .i32⟩
  | .hbm, ⟨88, _⟩ => ⟨S128x64, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S128, .f32⟩
  | .hbm, ⟨93, _⟩ => ⟨S50000x1, .i32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128x1, .f32⟩
  | .hbm, ⟨99, _⟩ => ⟨S128x64, .f32⟩
  | .hbm, ⟨100, _⟩ => ⟨S128x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S675000x1_S675000x64_0_1 : S675000x1.BroadcastsInDim S675000x64 (![0, 1] : Fin 2 → Fin S675000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S128x64 : S_.BroadcastsInDim S128x64 (![] : Fin 0 → Fin S128x64.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S5000x128_S128x128_S5000x128_1_0_0_1_n_n_wf : DotDims.WF S5000x128 S128x128 S5000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  dot_S5000x128_S128x64_S5000x64_1_0_0_1_n_n_wf : DotDims.WF S5000x128 S128x64 S5000x64 [1] [0] [0] [1] [] []
  gather_S50000x64_S675000x1_S675000x64_1_0_n_n_0_1_164_wf : GatherDims.WF S50000x64 S675000x1 S675000x64 [1] [0] [] [0] [] 1 ![1, 64]
  scatter_S50000x64_S675000x1_S675000x64_1_0_0_1_wf : ScatterDims.WF S50000x64 S675000x1 S675000x64 [1] [0] [0] 1
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S675000x1_S675000x64_1_0_n_n_0_1_164 : GatherDims S50000x64 S675000x1 S675000x64 where
  offsetDims := [1]
  collapsedSliceDims := [0]
  operandBatchingDims := []
  startIndicesBatchingDims := []
  startIndexMap := [0]
  indexVectorDim := 1
  sliceSizes := ![1, 64]
  wf := gather_S50000x64_S675000x1_S675000x64_1_0_n_n_0_1_164_wf
def scatter_S50000x64_S675000x1_S675000x64_1_0_0_1 : ScatterDims S50000x64 S675000x1 S675000x64 where
  updateWindowDims := [1]
  insertedWindowDims := [0]
  scatterDimsToOperandDims := [0]
  indexVectorDim := 1
  wf := scatter_S50000x64_S675000x1_S675000x64_1_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x625000 : Shape := ⟨2, ![2, 625000]⟩
abbrev S50000 : Shape := ⟨1, ![50000]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S675000x128 : Shape := ⟨2, ![675000, 128]⟩
abbrev S1x128 : Shape := ⟨2, ![1, 128]⟩
abbrev S50000x64 : Shape := ⟨2, ![50000, 64]⟩
abbrev S675000x64 : Shape := ⟨2, ![675000, 64]⟩
abbrev S1x64 : Shape := ⟨2, ![1, 64]⟩
abbrev S50000x1 : Shape := ⟨2, ![50000, 1]⟩
abbrev S128x1 : Shape := ⟨2, ![128, 1]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x64, .f32⟩
  | 4 => ⟨S64, .f32⟩
  | 5 => ⟨S2x625000, .i32⟩
  | 6 => ⟨S50000, .i32⟩
  | 7 => ⟨S1x625000, .i32⟩
  | 8 => ⟨S625000, .i32⟩
  | 9 => ⟨S1x625000, .i32⟩
  | 10 => ⟨S625000, .i32⟩
  | 11 => ⟨S50000x128, .f32⟩
  | 12 => ⟨S50000, .i32⟩
  | 13 => ⟨S675000, .i32⟩
  | 14 => ⟨S675000, .i32⟩
  | 15 => ⟨S_, .f32⟩
  | 16 => ⟨S675000, .f32⟩
  | 17 => ⟨S_, .f32⟩
  | 18 => ⟨S50000, .f32⟩
  | 19 => ⟨S675000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S675000, .i32⟩
  | 31 => ⟨S675000, .i1⟩
  | 32 => ⟨S_, .i32⟩
  | 33 => ⟨S675000, .i32⟩
  | 34 => ⟨S675000, .i32⟩
  | 35 => ⟨S675000, .i32⟩
  | 36 => ⟨S675000x1, .i32⟩
  | 37 => ⟨S675000, .f32⟩
  | 38 => ⟨S_, .i32⟩
  | 39 => ⟨S675000, .i32⟩
  | 40 => ⟨S675000, .i1⟩
  | 41 => ⟨S_, .i32⟩
  | 42 => ⟨S675000, .i32⟩
  | 43 => ⟨S675000, .i32⟩
  | 44 => ⟨S675000, .i32⟩
  | 45 => ⟨S675000x1, .i32⟩
  | 46 => ⟨S675000, .f32⟩
  | 47 => ⟨S675000, .f32⟩
  | 48 => ⟨S_, .i32⟩
  | 49 => ⟨S675000, .i32⟩
  | 50 => ⟨S675000, .i1⟩
  | 51 => ⟨S_, .i32⟩
  | 52 => ⟨S675000, .i32⟩
  | 53 => ⟨S675000, .i32⟩
  | 54 => ⟨S675000, .i32⟩
  | 55 => ⟨S675000x1, .i32⟩
  | 56 => ⟨S675000x128, .f32⟩
  | 57 => ⟨S675000x1, .f32⟩
  | 58 => ⟨S675000x128, .f32⟩
  | 59 => ⟨S675000x128, .f32⟩
  | 60 => ⟨S_, .f32⟩
  | 61 => ⟨S50000x128, .f32⟩
  | 62 => ⟨S675000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x64, .f32⟩
  | 71 => ⟨S50000, .i32⟩
  | 72 => ⟨S675000, .i32⟩
  | 73 => ⟨S675000, .i32⟩
  | 74 => ⟨S_, .f32⟩
  | 75 => ⟨S675000, .f32⟩
  | 76 => ⟨S_, .f32⟩
  | 77 => ⟨S50000, .f32⟩
  | 78 => ⟨S675000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S675000, .i32⟩
  | 90 => ⟨S675000, .i1⟩
  | 91 => ⟨S_, .i32⟩
  | 92 => ⟨S675000, .i32⟩
  | 93 => ⟨S675000, .i32⟩
  | 94 => ⟨S675000, .i32⟩
  | 95 => ⟨S675000x1, .i32⟩
  | 96 => ⟨S675000, .f32⟩
  | 97 => ⟨S_, .i32⟩
  | 98 => ⟨S675000, .i32⟩
  | 99 => ⟨S675000, .i1⟩
  | 100 => ⟨S_, .i32⟩
  | 101 => ⟨S675000, .i32⟩
  | 102 => ⟨S675000, .i32⟩
  | 103 => ⟨S675000, .i32⟩
  | 104 => ⟨S675000x1, .i32⟩
  | 105 => ⟨S675000, .f32⟩
  | 106 => ⟨S675000, .f32⟩
  | 107 => ⟨S_, .i32⟩
  | 108 => ⟨S675000, .i32⟩
  | 109 => ⟨S675000, .i1⟩
  | 110 => ⟨S_, .i32⟩
  | 111 => ⟨S675000, .i32⟩
  | 112 => ⟨S675000, .i32⟩
  | 113 => ⟨S675000, .i32⟩
  | 114 => ⟨S675000x1, .i32⟩
  | 115 => ⟨S675000x64, .f32⟩
  | 116 => ⟨S675000x1, .f32⟩
  | 117 => ⟨S675000x64, .f32⟩
  | 118 => ⟨S675000x64, .f32⟩
  | 119 => ⟨S_, .f32⟩
  | 120 => ⟨S50000x64, .f32⟩
  | 121 => ⟨S675000x1, .i32⟩
  | 122 => ⟨S50000x64, .f32⟩
  | 123 => ⟨S1x64, .f32⟩
  | 124 => ⟨S50000x64, .f32⟩
  | 125 => ⟨S50000x64, .f32⟩
  | 126 => ⟨S_, .f32⟩
  | 127 => ⟨S128x64, .f32⟩
  | _ => ⟨S50000x128, .f32⟩

abbrev hbmTy0_1 (i : Nat) : BufTy := match i % 128 with
  | 0 => ⟨S50000x1, .i32⟩
  | 1 => ⟨S128x64, .f32⟩
  | 2 => ⟨S_, .f32⟩
  | 3 => ⟨S50000, .f32⟩
  | 4 => ⟨S_, .f32⟩
  | 5 => ⟨S128, .f32⟩
  | 6 => ⟨S50000x1, .i32⟩
  | 7 => ⟨S128, .f32⟩
  | 8 => ⟨S_, .f32⟩
  | 9 => ⟨S128, .f32⟩
  | 10 => ⟨S128, .f32⟩
  | 11 => ⟨S128x1, .f32⟩
  | 12 => ⟨S128x64, .f32⟩
  | 13 => ⟨S128x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_cst_22 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_23 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S675000x1_S675000x64_0_1 : S675000x1.BroadcastsInDim S675000x64 (![0, 1] : Fin 2 → Fin S675000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S128x64 : S_.BroadcastsInDim S128x64 (![] : Fin 0 → Fin S128x64.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  dot_S50000x128_S128x128_S50000x128_1_0_0_1_n_n_wf : DotDims.WF S50000x128 S128x128 S50000x128 [1] [0] [0] [1] [] []
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  dot_S50000x128_S128x64_S50000x64_1_0_0_1_n_n_wf : DotDims.WF S50000x128 S128x64 S50000x64 [1] [0] [0] [1] [] []
  gather_S50000x64_S675000x1_S675000x64_1_0_n_n_0_1_164_wf : GatherDims.WF S50000x64 S675000x1 S675000x64 [1] [0] [] [0] [] 1 ![1, 64]
  scatter_S50000x64_S675000x1_S675000x64_1_0_0_1_wf : ScatterDims.WF S50000x64 S675000x1 S675000x64 [1] [0] [0] 1
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S675000x1_S675000x64_1_0_n_n_0_1_164 : GatherDims S50000x64 S675000x1 S675000x64 where
  offsetDims := [1]
  collapsedSliceDims := [0]
  operandBatchingDims := []
  startIndicesBatchingDims := []
  startIndexMap := [0]
  indexVectorDim := 1
  sliceSizes := ![1, 64]
  wf := gather_S50000x64_S675000x1_S675000x64_1_0_n_n_0_1_164_wf
def scatter_S50000x64_S675000x1_S675000x64_1_0_0_1 : ScatterDims S50000x64 S675000x1 S675000x64 where
  updateWindowDims := [1]
  insertedWindowDims := [0]
  scatterDimsToOperandDims := [0]
  indexVectorDim := 1
  wf := scatter_S50000x64_S675000x1_S675000x64_1_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

class Facts : Prop extends Facts₀ where

variable [Facts]
-- ==== Proof.RunValue.lean ====
/-
  The idealized kernel's run, with its result named.

  @main is seven segments: three stretches of host operations, the first kernel region, a stretch, the second region,
  and a last stretch. The buffer contents at each segment boundary are a fold from the launch memory (`W0` … `W7`);
  the launch rule for such a chain of segments ends with every unscoped buffer at the last boundary's contents `W7`.
  The frame reads off that state only that the arguments are as launched; here the result buffer is read off it as
  well: every weakly fair execution terminates, nothing faulting, with the result at `W7` of its buffer.
-/
import proofs.«154433_j54889682043380_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one, which takes unfolding
-- plain definitions in a metavariable's type
set_option backward.isDefEq.respectTransparency.types false in
/-- Every weakly fair execution of @main terminates, nothing faulting; the result buffer ends at the last boundary's
    contents and the argument arrays as launched. -/
theorem run_result : θ_run defs (onTc (τ := τ) (main (F := F))) ⟨m, fun _ => 0, ρ⟩ (fun r => ∀ c : Dev nD,
      r.2.mem ((c.tc : Thread nD τ).loc main_v73) = W7 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v73 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.Dense.lean ====
/-
  The two dense layers as whole-array functions, over the extended reals.

  `layer1 x w` is the matrix product x · w of a [50000, 128] array with a [128, 128] array: entry (r, c) is
  ∑ k, x (r, k) · w (k, c).

  `layer2 a b w` adds the bias vector b to every row of the [50000, 128] array a, takes the positive part, and
  multiplies by the [128, 64] array w: entry (r, c) is ∑ k, max (a (r, k) + b k) 0 · w (k, c).

  Both the tiled kernels (ten row blocks of 5000 rows each) and the reference's two `dot_general`s are shown equal to
  these, so no law beyond re-indexing a finite sum is needed: every row's whole contraction lies inside one block.
-/
import Idealize.ShloMosaic.PureOps.Ideal
import Idealize.ShloMosaic.Lib.ValueIdx

noncomputable section

namespace Cert.Dense

open Idealize.ShloMosaic Idealize.ShloMosaic.ValueIdx

/-- x · w, entry by entry. -/
def layer1 (x : FVec Ideal ⟨2, ![50000, 128]⟩ .f32) (w : FVec Ideal ⟨2, ![128, 128]⟩ .f32) : FVec Ideal ⟨2, ![50000, 128]⟩ .f32 :=
  fun i => ∑ k : Fin 128, x (ix2 (n0 := 50000) (n1 := 128) ⟨(i 0).val, (i 0).isLt⟩ k) * w (ix2 (n0 := 128) (n1 := 128) k ⟨(i 1).val, (i 1).isLt⟩)

/-- max (a + b) 0 · w, entry by entry; `b` is the bias as a function of the column. -/
def layer2 (a : FVec Ideal ⟨2, ![50000, 128]⟩ .f32) (b : Fin 128 → EReal) (w : FVec Ideal ⟨2, ![128, 64]⟩ .f32) : FVec Ideal ⟨2, ![50000, 64]⟩ .f32 :=
  fun i => ∑ k : Fin 128, max (a (ix2 (n0 := 50000) (n1 := 128) ⟨(i 0).val, (i 0).isLt⟩ k) + b k) (Ideal.ofBits .f32 0x00000000#32)
    * w (ix2 (n0 := 128) (n1 := 64) k ⟨(i 1).val, (i 1).isLt⟩)

end Cert.Dense

end
-- ==== Proof.Stages.lean ====
/-
  The reference, cut at its two dense layers.

  Between its two matrix products the reference only gathers, scales and scatter-adds rows (one round of message
  passing over the edge list with self-loops), and after the second it does the same once more, adds a bias and
  averages rows per graph. Neither chain is opened here: `pass1 h e` is the first round as a function of the node
  features `h` and the edge list `e`, and `tail h e b batch` is everything after the second product as a function of
  its result `h`. The reference's result is then
      tail (layer2 (pass1 (layer1 x W1) e) b1 W2) b2 e batch,
  with `layer1`, `layer2` the two dense layers as plain sums (`Dense`).
-/
import proofs.«154433_j54889682043380_1_alg».proof.Proof.RefReadP
import proofs.«154433_j54889682043380_1_alg».proof.Proof.Dense

noncomputable section

namespace Cert.ReferenceIdeal.Stages

open Cert.ReferenceIdeal Cert.ReferenceIdeal.Gen Cert.ReferenceIdeal.ReadP
open Idealize.ShloMosaic Idealize.ShloMosaic.TcCoe Idealize.SL.Sem Idealize.ShloMosaic.ValueIdx

section AnyInstance
variable {F : FTy → Type} [FloatOps F]

/-- One round of message passing on 128-wide node features `h`: gather the source rows, scale each by its edge's
    normalisation, scatter-add into the destination rows. -/
def pass1 (h : (⟨S50000x128, .f32⟩ : BufTy).Contents (Elt F)) (x5 : (⟨S2x625000, .i32⟩ : BufTy).Contents (Elt F)) :
    (⟨S50000x128, .f32⟩ : BufTy).Contents (Elt F) :=
  Host.scatterAdd scatter_S50000x128_S675000x1_S675000x128_1_0_0_1 (val_main_v41 (F := F)) (val_main_v42 (F := F) x5)
    (mulf (Host.gather gather_S50000x128_S675000x1_S675000x128_1_0_n_n_0_1_1128 h (val_main_v36 (F := F) x5)) (val_main_v39 (F := F) x5))

/-- The reference's first round is `pass1` of its first product. -/
theorem val_main_v43_eq (x0 : (⟨S50000x128, .f32⟩ : BufTy).Contents (Elt F)) (x1 : (⟨S128x128, .f32⟩ : BufTy).Contents (Elt F))
    (x5 : (⟨S2x625000, .i32⟩ : BufTy).Contents (Elt F)) :
    val_main_v43 (F := F) x0 x1 x5 = pass1 (val_main_v4 (F := F) x0 x1) x5 := rfl

/-- Everything after the second product, as a function of its result `h`: the second round of message passing on
    64-wide features, the bias `x4`, and the mean over each graph of the batch vector `x6`. -/
def tail (h : (⟨S50000x64, .f32⟩ : BufTy).Contents (Elt F)) (x4 : (⟨S64, .f32⟩ : BufTy).Contents (Elt F))
    (x5 : (⟨S2x625000, .i32⟩ : BufTy).Contents (Elt F)) (x6 : (⟨S50000, .i32⟩ : BufTy).Contents (Elt F)) :
    (⟨S128x64, .f32⟩ : BufTy).Contents (Elt F) :=
  Host.divf
    (Host.scatterAdd scatter_S128x64_S50000x1_S50000x64_1_0_0_1 (val_main_v91 (F := F)) (val_main_v92 (F := F) x6)
      (addf
        (Host.scatterAdd scatter_S50000x64_S675000x1_S675000x64_1_0_0_1 (val_main_v85 (F := F)) (val_main_v86 (F := F) x5)
          (mulf (Host.gather gather_S50000x64_S675000x1_S675000x64_1_0_n_n_0_1_164 h (val_main_v80 (F := F) x5)) (val_main_v83 (F := F) x5)))
        (val_main_v89 (F := F) x4)))
    (val_main_v101 (F := F) x6)

/-- The reference's result is `tail` of its second product. -/
theorem val_main_v102_eq_tail (x0 : (⟨S50000x128, .f32⟩ : BufTy).Contents (Elt F)) (x1 : (⟨S128x128, .f32⟩ : BufTy).Contents (Elt F))
    (x2 : (⟨S128, .f32⟩ : BufTy).Contents (Elt F)) (x3 : (⟨S128x64, .f32⟩ : BufTy).Contents (Elt F)) (x4 : (⟨S64, .f32⟩ : BufTy).Contents (Elt F))
    (x5 : (⟨S2x625000, .i32⟩ : BufTy).Contents (Elt F)) (x6 : (⟨S50000, .i32⟩ : BufTy).Contents (Elt F)) :
    val_main_v102 (F := F) x0 x1 x2 x3 x4 x5 x6 = tail (val_main_v48 (F := F) x0 x1 x2 x3 x5) x4 x5 x6 := rfl

end AnyInstance

/-! ## The two products as plain sums -/

/-- The first product is `layer1`. -/
theorem val_main_v4_eq (x0 : (⟨S50000x128, .f32⟩ : BufTy).Contents (Elt Ideal)) (x1 : (⟨S128x128, .f32⟩ : BufTy).Contents (Elt Ideal)) :
    val_main_v4 (F := Ideal) x0 x1 = Cert.Dense.layer1 x0 x1 := by
  funext i
  rw [val_main_v4_apply]
  unfold Cert.Dense.layer1
  refine Finset.sum_congr rfl fun k _ => ?_
  have el : lidx_main_v4 i k = ix2 (n0 := 50000) (n1 := 128) ⟨(i 0).val, (i 0).isLt⟩ k :=
    funext fun a => by match a with | ⟨0, _⟩ => rfl | ⟨1, _⟩ => rfl
  have er : ridx_main_v4 i k = ix2 (n0 := 128) (n1 := 128) k ⟨(i 1).val, (i 1).isLt⟩ :=
    funext fun a => by match a with | ⟨0, _⟩ => rfl | ⟨1, _⟩ => rfl
  rw [el, er]

/-- The bias vector as a function of the column. -/
abbrev biasOf (x2 : (⟨S128, .f32⟩ : BufTy).Contents (Elt Ideal)) : Fin 128 → EReal := fun k => x2 (ix1 k)

/-- The second product — of the positive part of the first round plus the bias — is `layer2`. -/
theorem val_main_v48_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x64, .f32⟩ : BufTy).Contents (Elt Ideal))
    (x5 : (⟨S2x625000, .i32⟩ : BufTy).Contents (Elt Ideal)) :
    val_main_v48 (F := Ideal) x0 x1 x2 x3 x5 = Cert.Dense.layer2 (val_main_v43 (F := Ideal) x0 x1 x5) (biasOf x2) x3 := by
  funext i
  rw [val_main_v48_apply]
  unfold Cert.Dense.layer2
  refine Finset.sum_congr rfl fun k _ => ?_
  -- the left factor is the positive part of (first round + bias), both read at (r, k)
  show max (val_main_v43 (F := Ideal) x0 x1 x5 (lidx_main_v48 i k) + val_main_v45 (F := Ideal) x2 (lidx_main_v48 i k))
      (val_main_call1_v0 (F := Ideal) (lidx_main_v48 i k)) * x3 (ridx_main_v48 i k) = _
  generalize val_main_v43 (F := Ideal) x0 x1 x5 = A
  have el : lidx_main_v48 i k = ix2 (n0 := 50000) (n1 := 128) ⟨(i 0).val, (i 0).isLt⟩ k :=
    funext fun a => by match a with | ⟨0, _⟩ => rfl | ⟨1, _⟩ => rfl
  have er : ridx_main_v48 i k = ix2 (n0 := 128) (n1 := 64) k ⟨(i 1).val, (i 1).isLt⟩ :=
    funext fun a => by match a with | ⟨0, _⟩ => rfl | ⟨1, _⟩ => rfl
  rw [el, er]
  have hb : val_main_v45 (F := Ideal) x2 (ix2 (n0 := 50000) (n1 := 128) ⟨(i 0).val, (i 0).isLt⟩ k) = x2 (ix1 k) :=
    (val_main_v45_apply x2 _).trans ((val_main_v44_apply x2 _).trans
      (congrArg x2 (funext fun a => by match a with | ⟨0, _⟩ => rfl)))
  have hz : val_main_call1_v0 (F := Ideal) (ix2 (n0 := 50000) (n1 := 128) ⟨(i 0).val, (i 0).isLt⟩ k) = Ideal.ofBits .f32 0x00000000#32 :=
    (val_main_call1_v0_apply _).trans (val_main_call1_cst_apply _)
  show max (A (ix2 (n0 := 50000) (n1 := 128) ⟨(i 0).val, (i 0).isLt⟩ k)
        + val_main_v45 (F := Ideal) x2 (ix2 (n0 := 50000) (n1 := 128) ⟨(i 0).val, (i 0).isLt⟩ k))
      (val_main_call1_v0 (F := Ideal) (ix2 (n0 := 50000) (n1 := 128) ⟨(i 0).val, (i 0).isLt⟩ k)) * _ = _
  rw [hb, hz]

end Cert.ReferenceIdeal.Stages

end
-- ==== Proof.Bodies.lean ====
/-
  The two kernel bodies as sums, at the extended reals.

  Each body loads whole blocks, forms a matrix product into a zero accumulator and stores it. A change of float
  format is the identity on the extended reals, so at an index (r, c) of the result block:

    first body   : ∑ k, x (r, k) · w (k, c)                                  — a row block of x against the whole of w;
    second body  : ∑ k, max (a (r, k) + b (0, k)) 0 · w (k, c)               — the bias row b added to every row of the
                   block a, the positive part taken, then the product against the whole of w.

  The contraction index of a product's dimension record is a one-axis index of extent 128; the sums are re-indexed
  over `Fin 128` so that the block's sum and the whole array's sum are sums over the same type.
-/
import proofs.«154433_j54889682043380_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Bodies

open Cert.KernelIdeal Cert.KernelIdeal.Gen Idealize.ShloMosaic Idealize.ShloMosaic.TcCoe Idealize.SL.Sem

/-! ## The first product: a [5000, 128] block against [128, 128] -/

/-- Row `r` of the block, column `k`. -/
abbrev rowA (j : S5000x128.Idx) (k : Fin 128) : S5000x128.Idx := fun a => match a with
  | ⟨0, _⟩ => ⟨(j 0).val, (j 0).isLt⟩
  | ⟨1, _⟩ => ⟨k.val, k.isLt⟩
/-- Row `k` of the weights, column `c`. -/
abbrev colA (j : S5000x128.Idx) (k : Fin 128) : S128x128.Idx := fun a => match a with
  | ⟨0, _⟩ => ⟨k.val, k.isLt⟩
  | ⟨1, _⟩ => ⟨(j 1).val, (j 1).isLt⟩

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first body's stored value at (r, c): the dot product of row r of the block with column c of the weights. -/
theorem first_apply (x : Vec Ideal S5000x128 .f32) (w : Vec Ideal S128x128 .f32) (j : S5000x128.Idx) :
    k0_pay1 (F := Ideal) x w j = ∑ k : Fin 128, x (rowA j k) * w (colA j k) := by
  unfold k0_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowA j k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx j ((ValueIdx.contrEquiv1 dot_S5000x128_S128x128_S5000x128_1_0_0_1_n_n 128 rfl rfl).symm k) = colA j k := funext fun a => Fin.ext (by
    match a with
    | ⟨0, _⟩ => exact (rhsA_0 _ _).trans hk
    | ⟨1, _⟩ => exact rhsA_1 _ _)
  rw [el, er]
  rfl

/-! ## The second product: a [5000, 128] block against [128, 64], after the bias and the positive part -/

/-- Row `r` of the block, column `k`. -/
abbrev rowB (j : S5000x64.Idx) (k : Fin 128) : S5000x128.Idx := fun a => match a with
  | ⟨0, _⟩ => ⟨(j 0).val, (j 0).isLt⟩
  | ⟨1, _⟩ => ⟨k.val, k.isLt⟩
/-- Row `k` of the weights, column `c`. -/
abbrev colB (j : S5000x64.Idx) (k : Fin 128) : S128x64.Idx := fun a => match a with
  | ⟨0, _⟩ => ⟨k.val, k.isLt⟩
  | ⟨1, _⟩ => ⟨(j 1).val, (j 1).isLt⟩
/-- Entry `k` of the bias row. -/
abbrev biasB (k : Fin 128) : S1x128.Idx := fun a => match a with
  | ⟨0, _⟩ => ⟨0, Nat.one_pos⟩
  | ⟨1, _⟩ => ⟨k.val, k.isLt⟩

theorem lhsB_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsB_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsB_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsB_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The bias row broadcast down the block's rows, read at (r, k): entry k of the row. -/
theorem bias_apply (b : Vec Ideal S1x128 .f32) (i : S5000x128.Idx) (k : Fin 128) (hk : (i 1).val = k.val) :
    broadcastTo S5000x128 (shapeCast S1x128 b shapeCasts_S1x128_S1x128) broadcasts_S1x128_S5000x128 i = b (biasB k) := by
  rw [shapeCast_self]
  exact broadcastTo_apply b broadcasts_S1x128_S5000x128 i (biasB k) (fun a => match a with
    | ⟨0, _⟩ => by show 0 = if (1 : Nat) = 1 then 0 else _; rw [if_pos rfl]
    | ⟨1, _⟩ => by show k.val = if (128 : Nat) = 1 then 0 else (i 1).val; rw [if_neg (by decide), hk])

/-- The second body's stored value at (r, c): the dot product of the positive part of (row r of the block plus the
    bias row) with column c of the weights. -/
theorem second_apply (x : Vec Ideal S5000x128 .f32) (b : Vec Ideal S1x128 .f32) (w : Vec Ideal S128x64 .f32) (j : S5000x64.Idx) :
    k1_pay1 (F := Ideal) x b w j
      = ∑ k : Fin 128, max (x (rowB j k) + b (biasB k)) (Ideal.ofBits .f32 0x00000000#32) * w (colB j k) := by
  unfold k1_pay1
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = rowB j k := funext fun a => Fin.ext (by
    match a with
    | ⟨0, _⟩ => exact lhsB_0 _ _
    | ⟨1, _⟩ => exact (lhsB_1 _ _).trans hk)
  have er : dot_S5000x128_S128x64_S5000x64_1_0_0_1_n_n.rhsIdx j ((ValueIdx.contrEquiv1 dot_S5000x128_S128x64_S5000x64_1_0_0_1_n_n 128 rfl rfl).symm k) = colB j k := funext fun a => Fin.ext (by
    match a with
    | ⟨0, _⟩ => exact (rhsB_0 _ _).trans hk
    | ⟨1, _⟩ => exact rhsB_1 _ _)
  rw [el, er]
  show max (shapeCast S5000x128 x shapeCasts_S5000x128_S5000x128 (rowB j k)
        + broadcastTo S5000x128 (shapeCast S1x128 b shapeCasts_S1x128_S1x128) broadcasts_S1x128_S5000x128 (rowB j k))
      (Ideal.ofBits .f32 0x00000000#32) * w (colB j k) = _
  rw [shapeCast_self, bias_apply b (rowB j k) k rfl]

end Cert.KernelIdeal.Bodies

end
-- ==== Proof.Region0.lean ====
/-
  The first kernel region's output array: the whole matrix product.

  The region walks ten grid points; point t stages rows [5000·t, 5000·t + 5000) of the left array and the whole right
  array, and writes back the block's product to the same rows of the output. Row r of the output is therefore
  written by point r / 5000, and what is written there is the dot product of row r of the left array with a column
  of the right array: the whole-array product `Dense.layer1`, whatever the region-entry contents `V` are.
-/
import proofs.«154433_j54889682043380_1_alg».proof.Proof.Gen.KernelIdeal.Frame
import proofs.«154433_j54889682043380_1_alg».proof.Proof.Bodies
import proofs.«154433_j54889682043380_1_alg».proof.Proof.Dense
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: the left array's and the output's row block is the point's number, every other
    block index is zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its row block of the whole product. -/
theorem flushed_eq (c : Dev nD) (t : Fin cfg0.N) :
    (dat0 V c).flushed 2 t = ((cfg0.win 2).blk t).view.read (Elt Ideal) (Cert.Dense.layer1 (V c main_arg0) (V c main_arg1)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  obtain ⟨e0, e1, e2, e3, e4, e5⟩ := index_maps t
  funext j
  refine (Bodies.first_apply (iblk0 V c 0 t) (iblk0 V c 1 t) j).trans ?_
  show _ = Cert.Dense.layer1 (V c main_arg0) (V c main_arg1) (((cfg0.win 2).blk t).view.emb j)
  unfold Cert.Dense.layer1
  refine Finset.sum_congr rfl fun k _ => ?_
  have h0 : iblk0 V c 0 t (Bodies.rowA j k)
      = V c main_arg0 (ix2 (n0 := 50000) (n1 := 128) ⟨((((cfg0.win 2).blk t).view.emb j) 0).val, ((((cfg0.win 2).blk t).view.emb j) 0).isLt⟩ k) := by
    show V c main_arg0 (((cfg0.win 0).blk t).view.emb (Bodies.rowA j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (Bodies.colA j k)
      = V c main_arg1 (ix2 (n0 := 128) (n1 := 128) k ⟨((((cfg0.win 2).blk t).view.emb j) 1).val, ((((cfg0.win 2).blk t).view.emb j) 1).isLt⟩) := by
    show V c main_arg1 (((cfg0.win 1).blk t).view.emb (Bodies.colA j k)) = _
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r is written by point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := index_maps t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the whole product of the two arrays the region reads, as it finds them. -/
theorem final (c : Dev nD) : (dat0 V c).arrAt 2 cfg0.N = Cert.Dense.layer1 (V c main_arg0) (V c main_arg1) :=
  (dat0 V c).arrAt_eq_of_cover 2 _ (fun t _ => flushed_eq V c t) cover

end Cert.KernelIdeal.Region0

end
-- ==== Proof.Region1.lean ====
/-
  The second kernel region's output array: the second dense layer.

  Ten grid points again; point t stages rows [5000·t, 5000·t + 5000) of the 128-wide array the region reads first,
  the whole bias row and the whole [128, 64] weights, and writes the block's result back to the same rows of the
  output. Row r of the output is written by point r / 5000 and holds, in column c,
  ∑ k, max (a (r, k) + bias k) 0 · w (k, c): the whole-array `Dense.layer2`, whatever the region-entry contents `V`.
-/
import proofs.«154433_j54889682043380_1_alg».proof.Proof.Gen.KernelIdeal.Frame
import proofs.«154433_j54889682043380_1_alg».proof.Proof.Bodies
import proofs.«154433_j54889682043380_1_alg».proof.Proof.Dense
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: the first input's and the output's row block is the point's number, every other
    block index is zero. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The bias row the region reads, as a function of the column. -/
abbrev biasRow (c : Dev nD) : Fin 128 → EReal := fun k => V c main_v44 (Bodies.biasB k)

/-- What point `t` writes back is its row block of the whole second layer. -/
theorem flushed_eq (c : Dev nD) (t : Fin cfg1.N) :
    (dat1 V c).flushed 3 t
      = ((cfg1.win 3).blk t).view.read (Elt Ideal) (Cert.Dense.layer2 (V c main_v43) (biasRow V c) (V c main_arg3)) := by
  show (cfg1.win 3).cut (grid1.coords t) ((dat1 V c).after 3 t) = _
  rw [after1_3]
  unfold out1_3
  rw [View.canon_unit_zero zeros]
  simp only [View.ld_unit_zero (S := S5000x128) zeros, View.ld_unit_zero (S := S1x128) zeros, View.ld_unit_zero (S := S128x64) zeros]
  obtain ⟨e0, e1, e2, e3, e4, e5, e6, e7⟩ := index_maps t
  funext j
  refine (Bodies.second_apply (iblk1 V c 0 t) (iblk1 V c 1 t) (iblk1 V c 2 t) j).trans ?_
  show _ = Cert.Dense.layer2 (V c main_v43) (biasRow V c) (V c main_arg3) (((cfg1.win 3).blk t).view.emb j)
  unfold Cert.Dense.layer2
  refine Finset.sum_congr rfl fun k _ => ?_
  have h0 : iblk1 V c 0 t (Bodies.rowB j k)
      = V c main_v43 (ix2 (n0 := 50000) (n1 := 128) ⟨((((cfg1.win 3).blk t).view.emb j) 0).val, ((((cfg1.win 3).blk t).view.emb j) 0).isLt⟩ k) := by
    show V c main_v43 (((cfg1.win 0).blk t).view.emb (Bodies.rowB j k)) = _
    refine congrArg (V c main_v43) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : iblk1 V c 1 t (Bodies.biasB k) = biasRow V c k := by
    show V c main_v44 (((cfg1.win 1).blk t).view.emb (Bodies.biasB k)) = V c main_v44 (Bodies.biasB k)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have h2 : iblk1 V c 2 t (Bodies.colB j k)
      = V c main_arg3 (ix2 (n0 := 128) (n1 := 64) k ⟨((((cfg1.win 3).blk t).view.emb j) 1).val, ((((cfg1.win 3).blk t).view.emb j) 1).isLt⟩) := by
    show V c main_arg3 (((cfg1.win 2).blk t).view.emb (Bodies.colB j k)) = _
    refine congrArg (V c main_arg3) (funext fun a => Fin.ext ?_)
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega
  rw [h0, h1, h2]

/-- An index of the output array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Row r is written by point r / 5000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7⟩ := index_maps t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the region: the second dense layer of the three arrays the region reads, as it finds them. -/
theorem final (c : Dev nD) :
    (dat1 V c).arrAt 3 cfg1.N = Cert.Dense.layer2 (V c main_v43) (biasRow V c) (V c main_arg3) :=
  (dat1 V c).arrAt_eq_of_cover 3 _ (fun t _ => flushed_eq V c t) cover

end Cert.KernelIdeal.Region1

end
-- ==== Proof.Boundary.lean ====
/-
  The idealized kernel's buffers at each segment boundary, as functions of the arguments.

  The run folds the buffer contents through @main's seven segments (`W0` … `W7`). Read back here, one boundary at a
  time, is what the few buffers that matter hold: the edge list with self-loops (sources and destinations) and the
  normalisation of every edge, computed once before the first region; the first region's output, the whole product
  x · W1; the first round of message passing on it and the bias row, which the second region reads; the second
  region's output, the second dense layer; and the result, everything after it.

  The host operations are the reference's own, operation for operation, so each chain is stated with the reference's
  stages and never opened. The two concatenations that build the edge list take their pieces inside a list literal,
  which a rewrite does not enter; the fold is therefore cut once the edge list is built (`Va`, after the first seven
  operations), the two lists are read there, and from then on every operation reads them as whole buffers.
-/
import proofs.«154433_j54889682043380_1_alg».proof.Proof.Gen.KernelIdeal.Frame
import proofs.«154433_j54889682043380_1_alg».proof.Proof.Region0
import proofs.«154433_j54889682043380_1_alg».proof.Proof.Region1
import proofs.«154433_j54889682043380_1_alg».proof.Proof.Stages
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! ## Once the edge list is built -/

/-- The buffers once the edge list with self-loops is built: after the first seven host operations. -/
def Va : Valuation τ sig (Elt Ideal) := StableHlo.after ((hostOps0 (F := Ideal)).take 7) (W0 m ρ c)

theorem W1_eq : W1 m ρ c = StableHlo.after ((hostOps0 (F := Ideal)).drop 7) (Va m ρ c) := by
  unfold Va
  rw [← StableHlo.after_append, List.take_append_drop]

theorem W3_eq : W3 m ρ c = StableHlo.after hostOps0_2 (StableHlo.after hostOps0_1 (StableHlo.after ((hostOps0 (F := Ideal)).drop 7) (Va m ρ c))) := by
  show StableHlo.after hostOps0_2 (StableHlo.after hostOps0_1 (W1 m ρ c)) = _
  rw [W1_eq]

/-- The sources: the edge list's first row followed by 0 … 49999. -/
theorem Va_src : Va m ρ c (Proc.devRef .tc main_v5) = Cert.ReferenceIdeal.ReadP.val_main_v6 (F := Ideal) (m ((c : Thread nD τ).loc main_arg5)) := by
  unfold Va; simp only [hostOps0, List.take]; after_results; rfl
/-- The destinations: the edge list's second row followed by 0 … 49999. -/
theorem Va_dst : Va m ρ c (Proc.devRef .tc main_v6) = Cert.ReferenceIdeal.ReadP.val_main_v7 (F := Ideal) (m ((c : Thread nD τ).loc main_arg5)) := by
  unfold Va; simp only [hostOps0, List.take]; after_results; rfl
theorem Va_arg0 : Va m ρ c (Proc.devRef .tc main_arg0) = (m ((c : Thread nD τ).loc main_arg0)) := by
  unfold Va; simp only [hostOps0, List.take]; after_results_simp <;> rfl
theorem Va_arg1 : Va m ρ c (Proc.devRef .tc main_arg1) = (m ((c : Thread nD τ).loc main_arg1)) := by
  unfold Va; simp only [hostOps0, List.take]; after_results_simp <;> rfl
theorem Va_arg2 : Va m ρ c (Proc.devRef .tc main_arg2) = (m ((c : Thread nD τ).loc main_arg2)) := by
  unfold Va; simp only [hostOps0, List.take]; after_results_simp <;> rfl
theorem Va_arg3 : Va m ρ c (Proc.devRef .tc main_arg3) = (m ((c : Thread nD τ).loc main_arg3)) := by
  unfold Va; simp only [hostOps0, List.take]; after_results_simp <;> rfl
theorem Va_arg4 : Va m ρ c (Proc.devRef .tc main_arg4) = (m ((c : Thread nD τ).loc main_arg4)) := by
  unfold Va; simp only [hostOps0, List.take]; after_results_simp <;> rfl
theorem Va_arg6 : Va m ρ c (Proc.devRef .tc main_arg6) = (m ((c : Thread nD τ).loc main_arg6)) := by
  unfold Va; simp only [hostOps0, List.take]; after_results_simp <;> rfl

/-! ## At the first region's entry -/

theorem W3_src : W3 m ρ c (Proc.devRef .tc main_v5) = Cert.ReferenceIdeal.ReadP.val_main_v6 (F := Ideal) (m ((c : Thread nD τ).loc main_arg5)) := by
  rw [W3_eq]
  have h5 := Va_src m ρ c
  generalize Va m ρ c = V at h5 ⊢
  simp only [hostOps0, hostOps0_1, hostOps0_2, List.drop]
  after_results_simp
  exact h5
theorem W3_dst : W3 m ρ c (Proc.devRef .tc main_v6) = Cert.ReferenceIdeal.ReadP.val_main_v7 (F := Ideal) (m ((c : Thread nD τ).loc main_arg5)) := by
  rw [W3_eq]
  have h6 := Va_dst m ρ c
  generalize Va m ρ c = V at h6 ⊢
  simp only [hostOps0, hostOps0_1, hostOps0_2, List.drop]
  after_results_simp
  exact h6
set_option maxHeartbeats 2000000 in
/-- The normalisation of every edge: the product of the inverse square roots of its two ends' degrees. -/
theorem W3_norm : W3 m ρ c (Proc.devRef .tc main_v29) = Cert.ReferenceIdeal.ReadP.val_main_v30 (F := Ideal) (m ((c : Thread nD τ).loc main_arg5)) := by
  rw [W3_eq]
  have h5 := Va_src m ρ c
  have h6 := Va_dst m ρ c
  generalize Va m ρ c = V at h5 h6 ⊢
  simp only [hostOps0, hostOps0_1, hostOps0_2, List.drop]
  after_results_simp
  simp only [h5, h6, TRef.toBuf, TRef.ofBuf, cast_eq]
  rfl
theorem W3_arg0 : W3 m ρ c (Proc.devRef .tc main_arg0) = (m ((c : Thread nD τ).loc main_arg0)) := by
  rw [W3_eq]; have h := Va_arg0 m ρ c; generalize Va m ρ c = V at h ⊢
  simp only [hostOps0, hostOps0_1, hostOps0_2, List.drop]; after_results_simp; exact h
theorem W3_arg1 : W3 m ρ c (Proc.devRef .tc main_arg1) = (m ((c : Thread nD τ).loc main_arg1)) := by
  rw [W3_eq]; have h := Va_arg1 m ρ c; generalize Va m ρ c = V at h ⊢
  simp only [hostOps0, hostOps0_1, hostOps0_2, List.drop]; after_results_simp; exact h
theorem W3_arg2 : W3 m ρ c (Proc.devRef .tc main_arg2) = (m ((c : Thread nD τ).loc main_arg2)) := by
  rw [W3_eq]; have h := Va_arg2 m ρ c; generalize Va m ρ c = V at h ⊢
  simp only [hostOps0, hostOps0_1, hostOps0_2, List.drop]; after_results_simp; exact h
theorem W3_arg3 : W3 m ρ c (Proc.devRef .tc main_arg3) = (m ((c : Thread nD τ).loc main_arg3)) := by
  rw [W3_eq]; have h := Va_arg3 m ρ c; generalize Va m ρ c = V at h ⊢
  simp only [hostOps0, hostOps0_1, hostOps0_2, List.drop]; after_results_simp; exact h
theorem W3_arg4 : W3 m ρ c (Proc.devRef .tc main_arg4) = (m ((c : Thread nD τ).loc main_arg4)) := by
  rw [W3_eq]; have h := Va_arg4 m ρ c; generalize Va m ρ c = V at h ⊢
  simp only [hostOps0, hostOps0_1, hostOps0_2, List.drop]; after_results_simp; exact h
theorem W3_arg6 : W3 m ρ c (Proc.devRef .tc main_arg6) = (m ((c : Thread nD τ).loc main_arg6)) := by
  rw [W3_eq]; have h := Va_arg6 m ρ c; generalize Va m ρ c = V at h ⊢
  simp only [hostOps0, hostOps0_1, hostOps0_2, List.drop]; after_results_simp; exact h

/-! ## At the first region's exit: its output is x · W1, everything else is as it was -/

theorem W4_h1 : W4 m ρ c (Proc.devRef .tc main_v30) = Cert.Dense.layer1 (m ((c : Thread nD τ).loc main_arg0)) (m ((c : Thread nD τ).loc main_arg1)) :=
  (W4_arr m ρ c 2).trans ((Region0.final (V3 m ρ) c).trans
    (congr (congrArg Cert.Dense.layer1 (W3_arg0 m ρ c)) (W3_arg1 m ρ c)))
theorem W4_src : W4 m ρ c (Proc.devRef .tc main_v5) = Cert.ReferenceIdeal.ReadP.val_main_v6 (F := Ideal) (m ((c : Thread nD τ).loc main_arg5)) :=
  (W4_of_ne m ρ c main_v5 (by decide)).trans (W3_src m ρ c)
theorem W4_dst : W4 m ρ c (Proc.devRef .tc main_v6) = Cert.ReferenceIdeal.ReadP.val_main_v7 (F := Ideal) (m ((c : Thread nD τ).loc main_arg5)) :=
  (W4_of_ne m ρ c main_v6 (by decide)).trans (W3_dst m ρ c)
theorem W4_norm : W4 m ρ c (Proc.devRef .tc main_v29) = Cert.ReferenceIdeal.ReadP.val_main_v30 (F := Ideal) (m ((c : Thread nD τ).loc main_arg5)) :=
  (W4_of_ne m ρ c main_v29 (by decide)).trans (W3_norm m ρ c)
theorem W4_arg2 : W4 m ρ c (Proc.devRef .tc main_arg2) = (m ((c : Thread nD τ).loc main_arg2)) := (W4_of_ne m ρ c main_arg2 (by decide)).trans (W3_arg2 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg6 : W4 m ρ c (Proc.devRef .tc main_arg6) = (m ((c : Thread nD τ).loc main_arg6)) := (W4_of_ne m ρ c main_arg6 (by decide)).trans (W3_arg6 m ρ c)

/-! ## At the second region's entry -/

set_option maxHeartbeats 2000000 in
/-- The first round of message passing on x · W1. -/
theorem W5_pass : W5 m ρ c (Proc.devRef .tc main_v43) = Cert.ReferenceIdeal.Stages.pass1 (F := Ideal) (Cert.Dense.layer1 (m ((c : Thread nD τ).loc main_arg0)) (m ((c : Thread nD τ).loc main_arg1))) (m ((c : Thread nD τ).loc main_arg5)) := by
  show StableHlo.after hostOps1 (W4 m ρ c) (Proc.devRef .tc main_v43) = _
  have h30 := W4_h1 m ρ c
  have h5 := W4_src m ρ c
  have h6 := W4_dst m ρ c
  have h29 := W4_norm m ρ c
  generalize W4 m ρ c = V at h30 h5 h6 h29 ⊢
  simp only [hostOps1]
  after_results_simp
  simp only [h30, h5, h6, h29]
  rfl
/-- The bias as a [1, 128] row. -/
theorem W5_bias : W5 m ρ c (Proc.devRef .tc main_v44) = shapeCast S1x128 (m ((c : Thread nD τ).loc main_arg2)) shapeCasts_S128_S1x128 := by
  show StableHlo.after hostOps1 (W4 m ρ c) (Proc.devRef .tc main_v44) = _
  have h2 := W4_arg2 m ρ c
  generalize W4 m ρ c = V at h2 ⊢
  simp only [hostOps1]
  after_results_simp
  simp only [h2]
  rfl
theorem W5_arg3 : W5 m ρ c (Proc.devRef .tc main_arg3) = (m ((c : Thread nD τ).loc main_arg3)) := by
  show StableHlo.after hostOps1 (W4 m ρ c) (Proc.devRef .tc main_arg3) = _
  have h := W4_arg3 m ρ c; generalize W4 m ρ c = V at h ⊢
  simp only [hostOps1]; after_results_simp; exact h
theorem W5_arg4 : W5 m ρ c (Proc.devRef .tc main_arg4) = (m ((c : Thread nD τ).loc main_arg4)) := by
  show StableHlo.after hostOps1 (W4 m ρ c) (Proc.devRef .tc main_arg4) = _
  have h := W4_arg4 m ρ c; generalize W4 m ρ c = V at h ⊢
  simp only [hostOps1]; after_results_simp; exact h
theorem W5_arg6 : W5 m ρ c (Proc.devRef .tc main_arg6) = (m ((c : Thread nD τ).loc main_arg6)) := by
  show StableHlo.after hostOps1 (W4 m ρ c) (Proc.devRef .tc main_arg6) = _
  have h := W4_arg6 m ρ c; generalize W4 m ρ c = V at h ⊢
  simp only [hostOps1]; after_results_simp; exact h
theorem W5_src : W5 m ρ c (Proc.devRef .tc main_v5) = Cert.ReferenceIdeal.ReadP.val_main_v6 (F := Ideal) (m ((c : Thread nD τ).loc main_arg5)) := by
  show StableHlo.after hostOps1 (W4 m ρ c) (Proc.devRef .tc main_v5) = _
  have h := W4_src m ρ c; generalize W4 m ρ c = V at h ⊢
  simp only [hostOps1]; after_results_simp; exact h
theorem W5_dst : W5 m ρ c (Proc.devRef .tc main_v6) = Cert.ReferenceIdeal.ReadP.val_main_v7 (F := Ideal) (m ((c : Thread nD τ).loc main_arg5)) := by
  show StableHlo.after hostOps1 (W4 m ρ c) (Proc.devRef .tc main_v6) = _
  have h := W4_dst m ρ c; generalize W4 m ρ c = V at h ⊢
  simp only [hostOps1]; after_results_simp; exact h
theorem W5_norm : W5 m ρ c (Proc.devRef .tc main_v29) = Cert.ReferenceIdeal.ReadP.val_main_v30 (F := Ideal) (m ((c : Thread nD τ).loc main_arg5)) := by
  show StableHlo.after hostOps1 (W4 m ρ c) (Proc.devRef .tc main_v29) = _
  have h := W4_norm m ρ c; generalize W4 m ρ c = V at h ⊢
  simp only [hostOps1]; after_results_simp; exact h

/-- The bias row, read at column k, is entry k of the bias vector. -/
theorem bias_row : Region1.biasRow (V5 m ρ) c = Cert.ReferenceIdeal.Stages.biasOf (m ((c : Thread nD τ).loc main_arg2)) := by
  funext k
  show W5 m ρ c (Proc.devRef .tc main_v44) (Bodies.biasB k) = (m ((c : Thread nD τ).loc main_arg2)) (ix1 k)
  rw [W5_bias]
  refine shapeCast_apply (m ((c : Thread nD τ).loc main_arg2)) shapeCasts_S128_S1x128 (Bodies.biasB k) (ix1 k) ?_
  show ((⟨1, ![128]⟩ : Shape).rowMajor (ix1 k)).val = ((⟨2, ![1, 128]⟩ : Shape).rowMajor (Bodies.biasB k)).val
  rw [Shape.rowMajor_val_one, Shape.rowMajor_val_two]
  show k.val = 0 * 128 + k.val
  omega

/-! ## At the second region's exit: its output is the second dense layer -/

theorem W6_h2 : W6 m ρ c (Proc.devRef .tc main_v45)
    = Cert.Dense.layer2 (Cert.ReferenceIdeal.Stages.pass1 (F := Ideal) (Cert.Dense.layer1 (m ((c : Thread nD τ).loc main_arg0)) (m ((c : Thread nD τ).loc main_arg1))) (m ((c : Thread nD τ).loc main_arg5))) (Cert.ReferenceIdeal.Stages.biasOf (m ((c : Thread nD τ).loc main_arg2))) (m ((c : Thread nD τ).loc main_arg3)) :=
  (W6_arr m ρ c 3).trans ((Region1.final (V5 m ρ) c).trans
    (congr (congr (congrArg Cert.Dense.layer2 (W5_pass m ρ c)) (bias_row m ρ c)) (W5_arg3 m ρ c)))
theorem W6_src : W6 m ρ c (Proc.devRef .tc main_v5) = Cert.ReferenceIdeal.ReadP.val_main_v6 (F := Ideal) (m ((c : Thread nD τ).loc main_arg5)) :=
  (W6_of_ne m ρ c main_v5 (by decide)).trans (W5_src m ρ c)
theorem W6_dst : W6 m ρ c (Proc.devRef .tc main_v6) = Cert.ReferenceIdeal.ReadP.val_main_v7 (F := Ideal) (m ((c : Thread nD τ).loc main_arg5)) :=
  (W6_of_ne m ρ c main_v6 (by decide)).trans (W5_dst m ρ c)
theorem W6_norm : W6 m ρ c (Proc.devRef .tc main_v29) = Cert.ReferenceIdeal.ReadP.val_main_v30 (F := Ideal) (m ((c : Thread nD τ).loc main_arg5)) :=
  (W6_of_ne m ρ c main_v29 (by decide)).trans (W5_norm m ρ c)
theorem W6_arg4 : W6 m ρ c (Proc.devRef .tc main_arg4) = (m ((c : Thread nD τ).loc main_arg4)) := (W6_of_ne m ρ c main_arg4 (by decide)).trans (W5_arg4 m ρ c)
theorem W6_arg6 : W6 m ρ c (Proc.devRef .tc main_arg6) = (m ((c : Thread nD τ).loc main_arg6)) := (W6_of_ne m ρ c main_arg6 (by decide)).trans (W5_arg6 m ρ c)

/-! ## The result -/

set_option maxHeartbeats 4000000 in
/-- The result buffer at the end of the run: everything after the second dense layer, applied to it. -/
theorem W7_result : W7 m ρ c (Proc.devRef .tc main_v73)
    = Cert.ReferenceIdeal.Stages.tail (F := Ideal) (Cert.Dense.layer2 (Cert.ReferenceIdeal.Stages.pass1 (F := Ideal) (Cert.Dense.layer1 (m ((c : Thread nD τ).loc main_arg0)) (m ((c : Thread nD τ).loc main_arg1))) (m ((c : Thread nD τ).loc main_arg5))) (Cert.ReferenceIdeal.Stages.biasOf (m ((c : Thread nD τ).loc main_arg2))) (m ((c : Thread nD τ).loc main_arg3))) (m ((c : Thread nD τ).loc main_arg4)) (m ((c : Thread nD τ).loc main_arg5)) (m ((c : Thread nD τ).loc main_arg6)) := by
  show StableHlo.after hostOps2 (W6 m ρ c) (Proc.devRef .tc main_v73) = _
  have h45 := W6_h2 m ρ c
  have h5 := W6_src m ρ c
  have h6 := W6_dst m ρ c
  have h29 := W6_norm m ρ c
  have h4 := W6_arg4 m ρ c
  have ha6 := W6_arg6 m ρ c
  generalize W6 m ρ c = V at h45 h5 h6 h29 h4 ha6 ⊢
  simp only [hostOps2]
  after_results_simp
  simp only [h45, h5, h6, h29, h4, ha6]
  rfl

end Cert.KernelIdeal.Boundary

end
-- ==== Proof.lean ====
/-
  Two graph-convolution layers and a mean pool: the tiled kernels against the plain reference, over the extended reals.

  Both programs compute, from node features x [50000, 128], weights W1 [128, 128], W2 [128, 64], biases b1, b2, an edge
  list e [2, 625000] and a batch vector,

      mean-pool ( pass (relu (pass (x · W1) + b1) · W2) + b2 ),

  where `pass` is one round of message passing over the edge list with self-loops: gather the source rows, scale each
  by the product of the inverse square roots of its two ends' degrees, scatter-add into the destination rows. The
  reference does every step with host operations. The kernel program does the same host operations (it computes the
  edge normalisation once where the reference computes it twice, which as a term of the edge list is the same term),
  except for the two dense layers, which are tiled kernels: ten row blocks of 5000 rows, each block's whole
  contraction inside the block, operands rounded to bf16 on the way in — the identity on the extended reals — and the
  bias and the positive part fused into the second. So:

  * each kernel region's output array is the whole dense layer as a plain sum (`Region0.final`, `Region1.final`), and
    so is each of the reference's two matrix products (`Stages.val_main_v4_eq`, `Stages.val_main_v48_eq`): only a
    finite sum is re-indexed, so no finiteness of the inputs is used;
  * the host chains between and after the dense layers are carried as two functions (`Stages.pass1`, `Stages.tail`)
    that neither side opens; the kernel program's buffers at each segment boundary are read back as these functions
    of the arguments (`Boundary`), the reference's result is the same composite (`Stages`);
  * the three frames are the generated runs; the idealization rewrote nothing, so `preserves` is trivial.
-/
import proofs.«154433_j54889682043380_1_alg».proof.Defs
import proofs.«154433_j54889682043380_1_alg».proof.Proof.Gen.Kernel
import proofs.«154433_j54889682043380_1_alg».proof.Proof.Gen.Kernel.Skeleton
import proofs.«154433_j54889682043380_1_alg».proof.Proof.Gen.Kernel.Launch
import proofs.«154433_j54889682043380_1_alg».proof.Proof.Gen.Kernel.Points
import proofs.«154433_j54889682043380_1_alg».proof.Proof.Gen.Kernel.Frame
import proofs.«154433_j54889682043380_1_alg».proof.Proof.Gen.KernelIdeal
import proofs.«154433_j54889682043380_1_alg».proof.Proof.Gen.KernelIdeal.Skeleton
import proofs.«154433_j54889682043380_1_alg».proof.Proof.Gen.KernelIdeal.Launch
import proofs.«154433_j54889682043380_1_alg».proof.Proof.Gen.KernelIdeal.Points
import proofs.«154433_j54889682043380_1_alg».proof.Proof.Gen.KernelIdeal.Frame
import proofs.«154433_j54889682043380_1_alg».proof.Proof.Gen.ReferenceIdeal
import proofs.«154433_j54889682043380_1_alg».proof.Proof.Gen.Pre_finite_inputs
import proofs.«154433_j54889682043380_1_alg».proof.Proof.RefRunP
import proofs.«154433_j54889682043380_1_alg».proof.Proof.RefReadP
import proofs.«154433_j54889682043380_1_alg».proof.Proof.RunValue
import proofs.«154433_j54889682043380_1_alg».proof.Proof.Stages
import proofs.«154433_j54889682043380_1_alg».proof.Proof.Boundary
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's run with its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result at the same function of the arguments: the kernel program's last boundary read
    back (`Boundary.W7_result`), the reference's composed term cut at its two products (`Stages`), on arguments
    that agree. -/
theorem algebraic : Cert.algebraic_KernelIdeal_ReferenceIdeal := by
  intro m ρ m' ρ' _ hagree
  refine ⟨fun c => Cert.KernelIdeal.Gen.W7 m ρ c (Proc.devRef .tc Cert.KernelIdeal.main_v73),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v102_eq, Cert.ReferenceIdeal.Stages.val_main_v102_eq_tail,
    Cert.ReferenceIdeal.Stages.val_main_v48_eq, Cert.ReferenceIdeal.Stages.val_main_v43_eq,
    Cert.ReferenceIdeal.Stages.val_main_v4_eq,
    (hagree c).1, (hagree c).2.1, (hagree c).2.2.1, (hagree c).2.2.2.1, (hagree c).2.2.2.2.1,
    (hagree c).2.2.2.2.2.1, (hagree c).2.2.2.2.2.2]
  exact (Cert.KernelIdeal.Boundary.W7_result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
